-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .bf16⟩
  | .hbm, ⟨3, _⟩ => ⟨S4096x4096, .bf16⟩
  | .hbm, ⟨4, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Pieces.lean ====
/-
  What one grid step leaves behind, as the body's arithmetic.

  The kernel walks a 4 × 4 × 4 grid (i, j, k), k innermost. Its body keeps a 1024 × 1024 accumulator in a scratch
  buffer that survives from one step to the next. At every step it stores "accumulator + (A block)·(B block)" back into
  the scratch; at the steps with k = 0 it first overwrites the scratch with the constant 36, and at the steps with
  k = 3 it finally copies the scratch into the output block. So there are three kinds of step:

    first steps  (k = 0):     scratch := step (the constant block) A-block B-block
    middle steps (k = 1, 2):  scratch := step (old scratch) A-block B-block
    last steps   (k = 3):     scratch := step (old scratch) A-block B-block, and the output block := the new scratch

  where `step acc a b` is the body's one arithmetic payload (acc + a·b as a matrix product into a zero accumulator)
  and the constant block is the body's other payload. The lemmas below say exactly this about what the run of each
  kind of step found in the scratch and in the output's buffer, for any float interpretation.
-/
import proofs.«149288_j72516227825730_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- The zero offsets of a whole-buffer load or store. -/
theorem hz : (![0, 0] : Fin 2 → Nat) = fun _ => 0 := funext fun a => by fin_cases a <;> rfl

/-- A middle step leaves in the scratch the body's step over what the scratch held. -/
theorem scratch_middle (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : ¬cond0_1 i) (x0 x1 : Vec F S1024x1024 .bf16) (xs0 : Vec F S1024x1024 .f32) :
    sout0_B_0 c i a3 h3 a4 h4 a5 h5 a6 h6 hc0 hc1 x0 x1 xs0 = k0_pay2 xs0 x0 x1 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x1024) hz]

/-- A last step leaves the same in the scratch … -/
theorem scratch_last (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (x0 x1 : Vec F S1024x1024 .bf16) (xs0 : Vec F S1024x1024 .f32) :
    sout0_C_0 c i a3 h3 a4 h4 a5 h5 a6 h6 hc0 hc1 x0 x1 xs0 = k0_pay2 xs0 x0 x1 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- … and copies it into the output's buffer: the scratch is read back after the step's store. -/
theorem output_last (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (hc0 : ¬cond0_0 i) (hc1 : cond0_1 i) (x0 x1 : Vec F S1024x1024 .bf16) (xs0 : Vec F S1024x1024 .f32) :
    out0_C_2 c i a3 h3 a4 h4 a5 h5 a6 h6 hc0 hc1 x0 x1 xs0 = k0_pay2 xs0 x0 x1 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

/-- A first step overwrites the scratch with the constant block, reads it back, and leaves the step over it. -/
theorem scratch_first (c : Dev nD) (i : grid0.Coords)
    (a3 : Memref sig .tc .vmem S1024x1024 .bf16) (h3 : a3.IsWhole) (a4 : Memref sig .tc .vmem S1024x1024 .bf16) (h4 : a4.IsWhole)
    (a5 : Memref sig .tc .vmem S1024x1024 .f32) (h5 : a5.IsWhole) (a6 : Memref sig .tc .vmem S1024x1024 .f32) (h6 : a6.IsWhole)
    (hc0 : cond0_0 i) (hc1 : ¬cond0_1 i) (x0 x1 : Vec F S1024x1024 .bf16) :
    sout0_A_0 c i a3 h3 a4 h4 a5 h5 a6 h6 hc0 hc1 x0 x1 = k0_pay2 (k0_pay1 (F := F)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

end Cert.KernelIdeal.Tile

end
-- ==== Proof.LibPlainDot.lean ====
/-
  The plain matrix product read at one entry, at the ideal values.

  Take dimension numbers that contract the left operand's column axis against the right operand's row axis and
  have no batch axis: an m×k matrix A times a k×n matrix B. Then a kernel's `tpu.matmul` into the zero
  accumulator and the host's `dot_general` both hold, at entry (a, b), the sum over the contracted coordinate c
  of A(a, c) · B(c, b) — in the extended reals, with no finiteness asked, since both are that sum by definition
  once the contraction index is renamed by its one coordinate.

  The dimension record may be any record equal to the library's `DotDims.plain m k n`; for a record written out
  with those lists the equality is `rfl`.
-/
import Idealize.ShloMosaic.PureOps.Ideal.Laws
import Idealize.ShloMosaic.Lib.ValueIdx

noncomputable section

open scoped BigOperators

namespace Cert.PlainDot

open Idealize.ShloMosaic Idealize.ShloMosaic.ValueIdx

variable {m k n : Nat} {φ₁ φ₂ : FTy}

/-- The left operand's row coordinate is the output's row. -/
theorem lhsIdx_plain_0 (j : (⟨2, ![m, n]⟩ : Shape).Idx) (q : (DotDims.plain m k n).contr.Idx) :
    ((DotDims.plain m k n).lhsIdx j q 0).val = (j 0).val := by
  unfold DotDims.lhsIdx
  rw [dif_neg (show ¬(0 : Fin 2) ∈ (DotDims.plain m k n).lhsBatch from List.not_mem_nil),
    dif_pos (show (0 : Fin 2) ∈ (DotDims.plain m k n).lhsNonContracting from List.mem_singleton.mpr rfl)]
  rfl

/-- The left operand's column coordinate is the contraction coordinate. -/
theorem lhsIdx_plain_1 (j : (⟨2, ![m, n]⟩ : Shape).Idx) (q : (DotDims.plain m k n).contr.Idx) :
    ((DotDims.plain m k n).lhsIdx j q 1).val = (q ⟨0, Nat.one_pos⟩).val :=
  (DotDims.plain m k n).lhsIdx_val_of_single rfl j q

/-- The right operand's row coordinate is the contraction coordinate. -/
theorem rhsIdx_plain_0 (j : (⟨2, ![m, n]⟩ : Shape).Idx) (q : (DotDims.plain m k n).contr.Idx) :
    ((DotDims.plain m k n).rhsIdx j q 0).val = (q ⟨0, Nat.one_pos⟩).val :=
  (DotDims.plain m k n).rhsIdx_val_of_single rfl j q

/-- The right operand's column coordinate is the output's column. -/
theorem rhsIdx_plain_1 (j : (⟨2, ![m, n]⟩ : Shape).Idx) (q : (DotDims.plain m k n).contr.Idx) :
    ((DotDims.plain m k n).rhsIdx j q 1).val = (j 1).val := by
  unfold DotDims.rhsIdx
  rw [dif_neg (show ¬(1 : Fin 2) ∈ (DotDims.plain m k n).rhsBatch from List.not_mem_nil),
    dif_pos (show (1 : Fin 2) ∈ (DotDims.plain m k n).rhsNonContracting from List.mem_singleton.mpr rfl)]
  rfl

/-- At output entry (a, b) and contraction coordinate c the left operand is read at (a, c). -/
theorem lhsIdx_plain (a : Fin m) (b : Fin n) (c : Fin k) :
    (DotDims.plain m k n).lhsIdx (ix2 a b) ((contrEquiv1 (DotDims.plain m k n) k rfl rfl).symm c) = ix2 a c := by
  have hc := contrEquiv1_symm_val (DotDims.plain m k n) k rfl rfl c
  funext ax
  apply Fin.ext
  match ax with
  | ⟨0, _⟩ => exact lhsIdx_plain_0 _ _
  | ⟨1, _⟩ => exact (lhsIdx_plain_1 _ _).trans hc

/-- At output entry (a, b) and contraction coordinate c the right operand is read at (c, b). -/
theorem rhsIdx_plain (a : Fin m) (b : Fin n) (c : Fin k) :
    (DotDims.plain m k n).rhsIdx (ix2 a b) ((contrEquiv1 (DotDims.plain m k n) k rfl rfl).symm c) = ix2 c b := by
  have hc := contrEquiv1_symm_val (DotDims.plain m k n) k rfl rfl c
  funext ax
  apply Fin.ext
  match ax with
  | ⟨0, _⟩ => exact (rhsIdx_plain_0 _ _).trans hc
  | ⟨1, _⟩ => exact rhsIdx_plain_1 _ _

/-- The sum over the contraction index of a plain product is the sum over its one coordinate. -/
theorem sum_contr_plain (A : (⟨2, ![m, k]⟩ : Shape).Idx → EReal) (B : (⟨2, ![k, n]⟩ : Shape).Idx → EReal)
    (a : Fin m) (b : Fin n) :
    (∑ q : (DotDims.plain m k n).contr.Idx,
        A ((DotDims.plain m k n).lhsIdx (ix2 a b) q) * B ((DotDims.plain m k n).rhsIdx (ix2 a b) q))
      = ∑ c : Fin k, A (ix2 a c) * B (ix2 c b) := by
  rw [← Equiv.sum_comp (contrEquiv1 (DotDims.plain m k n) k rfl rfl).symm]
  refine Finset.sum_congr rfl fun c _ => ?_
  rw [lhsIdx_plain, rhsIdx_plain]

/-- A `tpu.matmul` into the zero accumulator, with the plain dimension numbers, at entry (a, b):
    the sum over c of A(a, c) · B(c, b). -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂)
    (a : Fin m) (b : Fin n) :
    FloatOps.matmul D prec A B (constant (F := Ideal) ⟨2, ![m, n]⟩ .f32 0x00000000#32) (ix2 a b)
      = ∑ c : Fin k, A (ix2 a c) * B (ix2 c b) := by
  subst hD
  rw [Ideal.matmul_constant_zero_apply]
  exact sum_contr_plain A B a b

/-- The host's `dot_general` with the plain dimension numbers, at entry (a, b): the same sum. -/
theorem dotGeneral_apply (D : DotDims ⟨2, ![m, k]⟩ ⟨2, ![k, n]⟩ ⟨2, ![m, n]⟩) (hD : D = DotDims.plain m k n)
    (prec : Option ContractPrecision) (sched : HostSchedule) (A : FVec Ideal ⟨2, ![m, k]⟩ φ₁)
    (B : FVec Ideal ⟨2, ![k, n]⟩ φ₂) (a : Fin m) (b : Fin n) :
    FloatOps.dotGeneral D prec sched A B (ix2 a b) = ∑ c : Fin k, A (ix2 a c) * B (ix2 c b) := by
  subst hD
  rw [Ideal.dotGeneral_apply]
  exact sum_contr_plain A B a b

end Cert.PlainDot

end
-- ==== Proof.Step.lean ====
/-
  The body's arithmetic read at one entry, over the extended reals.

  One grid step takes the accumulator block `acc`, a 1024 × 1024 block `a` of the left matrix and a 1024 × 1024
  block `b` of the right matrix, and leaves acc + a·b: the matrix product is computed into a zero accumulator and
  added to `acc` entry by entry. Read at entry (p, q) with exact arithmetic this is
      acc(p, q) + Σ_{e < 1024} a(p, e) · b(e, q),
  and the block the first steps start from holds one constant (the float 36) at every entry. The casts the body
  spells between equal shapes do nothing.
-/
import proofs.«149288_j72516227825730_2_alg».proof.Proof.Gen.KernelIdeal.Skeleton
import proofs.«149288_j72516227825730_2_alg».proof.Proof.LibPlainDot
import Idealize.ShloMosaic.Lib.Pipeline.Value
import Idealize.ShloMosaic.Lib.ValueIdx

noncomputable section

open scoped BigOperators
open Idealize.ShloMosaic Idealize.ShloMosaic.ValueIdx

namespace Cert.KernelIdeal.Tile

open Cert.KernelIdeal Cert.KernelIdeal.Gen

/-- The constant the accumulator starts from: the float 36, as the kernel writes it. -/
abbrev start : EReal := Ideal.ofBits .f32 0x42100000#32

/-- The block the first steps start from holds the constant everywhere. -/
theorem init_apply (y : S1024x1024.Idx) : k0_pay1 (F := Ideal) y = start := by
  have e : k0_pay1 (F := Ideal) = broadcast S1024x1024 (Scalar.ofBits (F := Ideal) .f32 0x42100000#32) := by
    unfold k0_pay1
    simp only [shapeCast_self]
  rw [e]
  rfl

/-- One step at entry (p, q): the accumulator's entry plus the inner product of row p of the left block with
    column q of the right block. -/
theorem step_apply (acc : Vec Ideal S1024x1024 .f32) (a b : Vec Ideal S1024x1024 .bf16) (p q : Fin 1024) :
    k0_pay2 (F := Ideal) acc a b (ix2 p q) = acc (ix2 p q) + ∑ e : Fin 1024, a (ix2 p e) * b (ix2 e q) := by
  have e : k0_pay2 (F := Ideal) acc a b
      = addf acc (matmul (φ₁ := .bf16) (φ₂ := .bf16) dot_S1024x1024_S1024x1024_S1024x1024_1_0_0_1_n_n none a b
          (constant (F := Ideal) S1024x1024 .f32 0x00000000#32)) := by
    unfold k0_pay2
    simp only [shapeCast_self]
  rw [e, addf_apply]
  exact congrArg (acc (ix2 p q) + ·) (Cert.PlainDot.matmul_zero_apply (φ₁ := .bf16) (φ₂ := .bf16) _ rfl none a b p q)

end Cert.KernelIdeal.Tile

end
-- ==== Proof.Scratch.lean ====
/-
  What the accumulator holds after any step, entry by entry.

  The 64 grid steps run in order; step n has k = n mod 4, and the four steps 4g, 4g+1, 4g+2, 4g+3 work on the
  same output tile. The scratch accumulator is overwritten at the first of them and added to at the other three,
  so after step n it holds, at entry (p, q),
      36 + Σ_{s ≤ n mod 4} (the inner product that step 4·(n div 4) + s adds at (p, q)),
  where the inner product a step adds is row p of its left block against column q of its right block. This is the
  running total of a fold, read at an entry. At a last step (n mod 4 = 3) the output block is a copy of it.
-/
import proofs.«149288_j72516227825730_2_alg».proof.Proof.Gen.KernelIdeal.Value
import proofs.«149288_j72516227825730_2_alg».proof.Proof.Pieces
import proofs.«149288_j72516227825730_2_alg».proof.Proof.Step

noncomputable section

open scoped BigOperators
open Idealize.ShloMosaic Idealize.ShloMosaic.TcCoe Idealize.SL.Sem Idealize.ShloMosaic.ValueIdx

namespace Cert.KernelIdeal.Tile

open Cert.KernelIdeal Cert.KernelIdeal.Gen

variable (m : (ℓ : Loc nD τ sig) → Buf (Elt Ideal) ℓ)

/-- The block of the left matrix that step `t` reads. -/
def lblk (c : Dev nD) (t : Fin cfg0.N) : Vec Ideal S1024x1024 .bf16 := iblk m c 0 t

/-- The block of the right matrix that step `t` reads. -/
def rblk (c : Dev nD) (t : Fin cfg0.N) : Vec Ideal S1024x1024 .bf16 := iblk m c 1 t

/-- What step `n` adds to the accumulator at entry `y`: row `y 0` of its left block against column `y 1` of its
    right block (and nothing for a number past the grid, which is never used). -/
def addend (c : Dev nD) (n : ℕ) (y : S1024x1024.Idx) : EReal :=
  if h : n < cfg0.N then ∑ e : Fin 1024, lblk m c ⟨n, h⟩ (ix2 (y 0) e) * rblk m c ⟨n, h⟩ (ix2 e (y 1)) else 0

/-- A first step (k = 0) leaves the constant plus its own inner product, whatever the scratch held. -/
theorem first_step (c : Dev nD) (n : ℕ) (hb : n < cfg0.N) (h0 : n % 4 = 0) (acc : Vec Ideal S1024x1024 .f32)
    (y : S1024x1024.Idx) : Value.scAt0_0 m c n hb acc y = start + addend m c n y := by
  obtain ⟨p, q, rfl⟩ : ∃ (p q : Fin 1024), y = ix2 p q := ⟨y 0, y 1, eq_ix2 y⟩
  have h1 : ¬n % 4 = 3 := by omega
  unfold Value.scAt0_0
  rw [dif_pos h0, dif_neg h1]
  refine (congrFun (scratch_first (F := Ideal) c (grid0.coords ⟨n, hb⟩) (ms0_0 ⟨n, hb⟩) (hs0_0 ⟨n, hb⟩)
    (ms0_1 ⟨n, hb⟩) (hs0_1 ⟨n, hb⟩) (ms0_2 ⟨n, hb⟩) (hs0_2 ⟨n, hb⟩) scM0_0 (Memref.isWhole_whole _)
    ((hcond0_0 ⟨n, hb⟩).mpr h0) (fun h => h1 ((hcond0_1 ⟨n, hb⟩).mp h)) (lblk m c ⟨n, hb⟩) (rblk m c ⟨n, hb⟩))
    (ix2 p q)).trans ?_
  rw [step_apply, init_apply]
  unfold addend
  rw [dif_pos hb]

/-- Any other step leaves what the scratch held plus its own inner product. -/
theorem later_step (c : Dev nD) (n : ℕ) (hb : n < cfg0.N) (h0 : ¬n % 4 = 0) (acc : Vec Ideal S1024x1024 .f32)
    (y : S1024x1024.Idx) : Value.scAt0_0 m c n hb acc y = acc y + addend m c n y := by
  obtain ⟨p, q, rfl⟩ : ∃ (p q : Fin 1024), y = ix2 p q := ⟨y 0, y 1, eq_ix2 y⟩
  unfold Value.scAt0_0
  rw [dif_neg h0]
  by_cases h1 : n % 4 = 3
  · rw [dif_pos h1]
    refine (congrFun (scratch_last (F := Ideal) c (grid0.coords ⟨n, hb⟩) (ms0_0 ⟨n, hb⟩) (hs0_0 ⟨n, hb⟩)
      (ms0_1 ⟨n, hb⟩) (hs0_1 ⟨n, hb⟩) (ms0_2 ⟨n, hb⟩) (hs0_2 ⟨n, hb⟩) scM0_0 (Memref.isWhole_whole _)
      (fun h => h0 ((hcond0_0 ⟨n, hb⟩).mp h)) ((hcond0_1 ⟨n, hb⟩).mpr h1) (lblk m c ⟨n, hb⟩) (rblk m c ⟨n, hb⟩) acc)
      (ix2 p q)).trans ?_
    rw [step_apply]
    unfold addend
    rw [dif_pos hb]
  · rw [dif_neg h1]
    refine (congrFun (scratch_middle (F := Ideal) c (grid0.coords ⟨n, hb⟩) (ms0_0 ⟨n, hb⟩) (hs0_0 ⟨n, hb⟩)
      (ms0_1 ⟨n, hb⟩) (hs0_1 ⟨n, hb⟩) (ms0_2 ⟨n, hb⟩) (hs0_2 ⟨n, hb⟩) scM0_0 (Memref.isWhole_whole _)
      (fun h => h0 ((hcond0_0 ⟨n, hb⟩).mp h)) (fun h => h1 ((hcond0_1 ⟨n, hb⟩).mp h)) (lblk m c ⟨n, hb⟩) (rblk m c ⟨n, hb⟩) acc)
      (ix2 p q)).trans ?_
    rw [step_apply]
    unfold addend
    rw [dif_pos hb]

/-- THE RUNNING TOTAL: after step `t` the accumulator holds, at every entry, the constant plus the inner products
    of the steps of `t`'s group of four up to `t`. -/
theorem scratch_after (c : Dev nD) (t : Fin cfg0.N) (y : S1024x1024.Idx) :
    (outsAt0 m c t.val t.isLt).2 y
      = start + ∑ s ∈ Finset.range (t.val % 4 + 1), addend m c (4 * (t.val / 4) + s) y := by
  have hlt : 4 * (t.val / 4) + t.val % 4 < cfg0.N := by have := t.isLt; omega
  have key := Pipeline.accAt_add_apply (N := cfg0.N) (ι := S1024x1024.Idx) (β := EReal)
    (fun n h => Value.scAt0_0 m c n h (VS0_0.read (Elt Ideal) VS0_0.junk))
    (Value.scAt0_0 m c) (fun _ => start) (addend m c) (4 * (t.val / 4)) 3
    (fun h i => first_step m c (4 * (t.val / 4)) h (by omega) (VS0_0.read (Elt Ideal) VS0_0.junk) i)
    (fun n h acc i h1 h2 => later_step m c n h (by omega) acc i)
    (t.val % 4) (by omega) hlt y
  exact (congrFun (Value.soutsAt0_0_eq m c t) y).trans key

/-- At a last step (k = 3) the output block is a copy of the accumulator. -/
theorem output_after (c : Dev nD) (t : Fin cfg0.N) (h3 : t.val % 4 = 3) :
    (outsAt0 m c t.val t.isLt).1 = (outsAt0 m c t.val t.isLt).2 := by
  have h0 : ¬t.val % 4 = 0 := by omega
  rw [outsAt0_C m c t h0 h3]
  dsimp only
  exact (output_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h3) (lblk m c t) (rblk m c t)
      (outsAt0 m c (t.val - 1) (Nat.lt_of_le_of_lt (Nat.sub_le _ _) t.isLt)).2).trans
    (scratch_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h3) (lblk m c t) (rblk m c t)
      (outsAt0 m c (t.val - 1) (Nat.lt_of_le_of_lt (Nat.sub_le _ _) t.isLt)).2).symm

end Cert.KernelIdeal.Tile

end
-- ==== Proof.Spec.lean ====
/-
  What both programs compute, as one function of the two argument matrices.

  For 4096 × 4096 matrices A and B over the extended reals the result at entry (r, s) is
      (Σ_{e < 4096} A(r, e) · B(e, s)) + 36,
  the constant being the float 36 exactly as both programs write it (the same 32-bit pattern, so its value is
  never needed). Nothing here is asked to be finite: the sum and the final addition are taken as they stand in the
  extended reals.
-/
import Idealize.ShloMosaic.PureOps.Ideal
import Idealize.ShloMosaic.Lib.ValueIdx

noncomputable section

open scoped BigOperators
open Idealize.ShloMosaic Idealize.ShloMosaic.ValueIdx

namespace Cert.ProductPlusConst

/-- The constant added to every entry: the float 36, by its bit pattern. -/
abbrev shift : EReal := Ideal.ofBits .f32 0x42100000#32

/-- The matrix product of A and B with the constant added to every entry. -/
def G (A B : (⟨2, ![4096, 4096]⟩ : Shape).Idx → EReal) : (⟨2, ![4096, 4096]⟩ : Shape).Idx → EReal :=
  fun i => (∑ e : Fin 4096, A (ix2 (i 0) e) * B (ix2 e (i 1))) + shift

theorem G_apply (A B : (⟨2, ![4096, 4096]⟩ : Shape).Idx → EReal) (r s : Fin 4096) :
    G A B (ix2 r s) = (∑ e : Fin 4096, A (ix2 r e) * B (ix2 e s)) + shift := rfl

end Cert.ProductPlusConst

end
-- ==== Proof.LibTileSum.lean ====
/-
  A sum over a·b positions taken tile by tile, and a running total started from a constant.

  In any commutative additive monoid — the extended reals among them, where nothing is cancelled and so nothing
  has to be finite — a sum over the positions 0 … a·b − 1 is the sum over the a tiles of b consecutive positions
  of each tile's own sum; and a total that starts at a constant z and then receives the tile sums one after the
  other, ((z + s₀) + s₁) + …, is the whole sum plus z. Together: accumulating a contraction block by block from a
  constant gives the one long contraction plus that constant.
-/
import Mathlib.Algebra.BigOperators.Fin
import Mathlib.Logic.Equiv.Fin.Basic

open scoped BigOperators

namespace Cert.TileSum

variable {M : Type*} [AddCommMonoid M]

/-- A sum over `n = a·b` positions is the sum over the `a` tiles of the sum over the `b` positions of the tile,
    for any naming `pos k e` of position `k·b + e`. -/
theorem sum_tiles {n a b : ℕ} (hn : n = a * b) (f : Fin n → M) (pos : Fin a → Fin b → Fin n)
    (hpos : ∀ k e, (pos k e).val = k.val * b + e.val) :
    ∑ c : Fin n, f c = ∑ k : Fin a, ∑ e : Fin b, f (pos k e) := by
  subst hn
  rw [← Equiv.sum_comp finProdFinEquiv f, Fintype.sum_prod_type]
  refine Finset.sum_congr rfl fun k _ => Finset.sum_congr rfl fun e _ => congrArg f (Fin.ext ?_)
  rw [hpos]
  show e.val + b * k.val = k.val * b + e.val
  rw [Nat.mul_comm, Nat.add_comm]

/-- The same with the tiles counted by a natural number below `a`, as a running total counts them: `g k` is
    tile `k`'s sum for every `k < a`. -/
theorem sum_tiles_range {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) :
    ∑ k ∈ Finset.range a, g k = ∑ c : Fin n, f c := by
  rw [sum_tiles hn f pos hpos, Finset.sum_range]
  exact Finset.sum_congr rfl fun k _ => hg k

/-- A total started at `z` that has received the tiles' sums is the whole sum plus `z`. -/
theorem start_add_tiles {n a b : ℕ} (hn : n = a * b) (f : Fin n → M) (pos : Fin a → Fin b → Fin n)
    (hpos : ∀ k e, (pos k e).val = k.val * b + e.val) (g : ℕ → M)
    (hg : ∀ k : Fin a, g k.val = ∑ e : Fin b, f (pos k e)) (z : M) :
    z + ∑ k ∈ Finset.range a, g k = (∑ c : Fin n, f c) + z := by
  rw [sum_tiles_range hn f pos hpos g hg, add_comm]

end Cert.TileSum
-- ==== Proof.Blocks.lean ====
/-
  From the accumulator to the result array.

  Step t of the grid is the triple (i, j, k) = (t div 16, (t div 4) mod 4, t mod 4). It reads block (i, k) of the
  left matrix and block (k, j) of the right matrix — rows 1024·i …, columns 1024·k … of A, rows 1024·k …, columns
  1024·j … of B; the two matrices reach the kernel through a change of float format, which is the identity on exact
  values — and, when k = 3, writes its output block to block (i, j) of the result. So the inner product that step
  4g + k adds at entry (p, q) of its tile is the part of Σ_e A(P, e)·B(e, Q) with e in 1024·k … 1024·k + 1023, for
  P = 1024·i + p, Q = 1024·j + q; the four parts make up the whole contraction, and the block written at the last
  step of the group holds the product plus the constant at (P, Q). The 16 written blocks tile the result.
-/
import proofs.«149288_j72516227825730_2_alg».proof.Proof.Scratch
import proofs.«149288_j72516227825730_2_alg».proof.Proof.Spec
import proofs.«149288_j72516227825730_2_alg».proof.Proof.LibTileSum
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)

namespace Cert.KernelIdeal.Tile

open Cert.KernelIdeal Cert.KernelIdeal.Gen

variable (m : (ℓ : Loc nD τ sig) → Buf (Elt Ideal) ℓ) (ρ : Dev nD → PrngReg)

/-- The left argument matrix as launched. -/
abbrev argA (c : Dev nD) : S4096x4096.Idx → EReal := m ((c : Thread nD τ).loc main_arg0)

/-- The right argument matrix as launched. -/
abbrev argB (c : Dev nD) : S4096x4096.Idx → EReal := m ((c : Thread nD τ).loc main_arg1)

/-- What the result array must hold: the product of the arguments plus the constant. -/
abbrev want (c : Dev nD) : S4096x4096.Idx → EReal := Cert.ProductPlusConst.G (argA m c) (argB m c)

/-- The left matrix reaches the kernel through a change of float format: the same exact values. -/
theorem V_left (c : Dev nD) : (V m c main_v0 : S4096x4096.Idx → EReal) = argA m c := by
  dsimp only [Gen.V, Gen.hostOps0]; after_results; rfl

/-- The same for the right matrix. -/
theorem V_right (c : Dev nD) : (V m c main_v1 : S4096x4096.Idx → EReal) = argB m c := by
  dsimp only [Gen.V, Gen.hostOps0]; after_results; rfl

/-- The block each window is on at step t = 16·i + 4·j + k: the left matrix's at (i, k), the right matrix's at
    (k, j), the result's at (i, j) — decided over the 64 steps. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

/-- Entry (p, e) of the left block of step t is A at row 1024·i + p, column 1024·k + e. -/
theorem lblk_apply (c : Dev nD) (t : Fin cfg0.N) (p e : Fin 1024) (P K : Fin 4096)
    (hP : P.val = 1024 * (t.val / 16) + p.val) (hK : K.val = 1024 * (t.val % 4) + e.val) :
    lblk m c t (ix2 p e) = argA m c (ix2 P K) := by
  unfold lblk iblk
  rw [View.read_apply]
  show V m c main_v0 _ = _
  refine (congrFun (V_left m c) _).trans ?_
  refine congrArg (argA m c) (funext fun a => Fin.ext ?_)
  obtain ⟨e0, e1, -⟩ := idx_facts t
  match a with
  | ⟨0, _⟩ => show win0_0.index t (0 : Fin 2) * 1024 + 1 * p.val = P.val; rw [e0, hP]; omega
  | ⟨1, _⟩ => show win0_0.index t (1 : Fin 2) * 1024 + 1 * e.val = K.val; rw [e1, hK]; omega

/-- Entry (e, q) of the right block of step t is B at row 1024·k + e, column 1024·j + q. -/
theorem rblk_apply (c : Dev nD) (t : Fin cfg0.N) (e q : Fin 1024) (K Q : Fin 4096)
    (hK : K.val = 1024 * (t.val % 4) + e.val) (hQ : Q.val = 1024 * (t.val / 4 % 4) + q.val) :
    rblk m c t (ix2 e q) = argB m c (ix2 K Q) := by
  unfold rblk iblk
  rw [View.read_apply]
  show V m c main_v1 _ = _
  refine (congrFun (V_right m c) _).trans ?_
  refine congrArg (argB m c) (funext fun a => Fin.ext ?_)
  obtain ⟨-, -, e2, e3, -⟩ := idx_facts t
  match a with
  | ⟨0, _⟩ => show win0_1.index t (0 : Fin 2) * 1024 + 1 * e.val = K.val; rw [e2, hK]; omega
  | ⟨1, _⟩ => show win0_1.index t (1 : Fin 2) * 1024 + 1 * q.val = Q.val; rw [e3, hQ]; omega

/-- Position e of the k-th stretch of 1024 contraction positions. -/
def pos (k : Fin 4) (e : Fin 1024) : Fin 4096 := ⟨k.val * 1024 + e.val, by have := k.isLt; have := e.isLt; omega⟩

theorem pos_val (k : Fin 4) (e : Fin 1024) : (pos k e).val = k.val * 1024 + e.val := rfl

/-- The inner product that step k of t's group adds at entry y of the tile is the k-th stretch of 1024 terms of
    the contraction at (P, Q), the entry's place in the whole matrices. -/
theorem addend_eq (c : Dev nD) (t : Fin cfg0.N) (k : Fin 4) (y : S1024x1024.Idx) (P Q : Fin 4096)
    (hP : P.val = 1024 * (t.val / 16) + (y 0).val) (hQ : Q.val = 1024 * (t.val / 4 % 4) + (y 1).val) :
    addend m c (4 * (t.val / 4) + k.val) y
      = ∑ e : Fin 1024, argA m c (ix2 P (pos k e)) * argB m c (ix2 (pos k e) Q) := by
  have hN : cfg0.N = 64 := N_0
  have ht := t.isLt
  have hk := k.isLt
  have hb : 4 * (t.val / 4) + k.val < cfg0.N := by omega
  unfold addend
  rw [dif_pos hb]
  refine Finset.sum_congr rfl fun e _ => ?_
  have hpe := pos_val k e
  rw [lblk_apply m c ⟨4 * (t.val / 4) + k.val, hb⟩ (y 0) e P (pos k e)
      (by show P.val = 1024 * ((4 * (t.val / 4) + k.val) / 16) + (y 0).val; omega)
      (by show (pos k e).val = 1024 * ((4 * (t.val / 4) + k.val) % 4) + e.val; omega),
    rblk_apply m c ⟨4 * (t.val / 4) + k.val, hb⟩ e (y 1) (pos k e) Q
      (by show (pos k e).val = 1024 * ((4 * (t.val / 4) + k.val) % 4) + e.val; omega)
      (by show Q.val = 1024 * ((4 * (t.val / 4) + k.val) / 4 % 4) + (y 1).val; omega)]

/-- After the last step of a group the accumulator's entry y is the product plus the constant at the entry's
    place (P, Q) in the whole matrices: the four stretches make up the contraction, and the constant the total
    started from is added last instead of first. -/
theorem last_entry (c : Dev nD) (t : Fin cfg0.N) (h3 : t.val % 4 = 3) (y : S1024x1024.Idx) (P Q : Fin 4096)
    (hP : P.val = 1024 * (t.val / 16) + (y 0).val) (hQ : Q.val = 1024 * (t.val / 4 % 4) + (y 1).val) :
    (outsAt0 m c t.val t.isLt).2 y = want m c (ix2 P Q) := by
  rw [scratch_after m c t y]
  show _ = Cert.ProductPlusConst.G (argA m c) (argB m c) (ix2 P Q)
  rw [Cert.ProductPlusConst.G_apply, show t.val % 4 + 1 = 4 from by omega]
  exact Cert.TileSum.start_add_tiles (n := 4096) (a := 4) (b := 1024) rfl
    (fun e => argA m c (ix2 P e) * argB m c (ix2 e Q))
    pos pos_val
    (fun s => addend m c (4 * (t.val / 4) + s) y)
    (fun k => addend_eq m c t k y P Q hP hQ) start

/-- WHAT A WRITING STEP WRITES BACK is its block of the product plus the constant. -/
theorem flushed_eq (c : Dev nD) (t : Fin cfg0.N) (hf : (cfg0.win 2).flush t = true) :
    (dats m 0 c).flushed 2 t = ((cfg0.win 2).blk t).view.read (Elt Ideal) (want m c) := by
  have h3 : t.val % 4 = 3 := (flush0_2 t).mp hf
  rw [Value.flushed2, output_after m c t h3]
  funext y
  show (outsAt0 m c t.val t.isLt).2 y = want m c (((cfg0.win 2).blk t).view.emb y)
  have hN : cfg0.N = 64 := N_0
  have ht := t.isLt
  have hy0 : (y 0).val < 1024 := (y 0).isLt
  have hy1 : (y 1).val < 1024 := (y 1).isLt
  obtain ⟨-, -, -, -, e4, e5⟩ := idx_facts t
  have hemb : ((cfg0.win 2).blk t).view.emb y
      = ix2 (⟨1024 * (t.val / 16) + (y 0).val, by omega⟩ : Fin 4096) (⟨1024 * (t.val / 4 % 4) + (y 1).val, by omega⟩ : Fin 4096) := by
    funext a; apply Fin.ext
    match a with
    | ⟨0, _⟩ => show win0_2.index t (0 : Fin 2) * 1024 + 1 * (y 0).val = 1024 * (t.val / 16) + (y 0).val; rw [e4]; omega
    | ⟨1, _⟩ => show win0_2.index t (1 : Fin 2) * 1024 + 1 * (y 1).val = 1024 * (t.val / 4 % 4) + (y 1).val; rw [e5]; omega
  rw [hemb]
  exact last_entry m c t h3 y _ _ rfl rfl

/-- An index of the result is in step t's block iff each coordinate is in the block's range on its axis. -/
theorem mem_blk (t : Fin cfg0.N) (i : S4096x4096.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v2).slice (win0_2.rect t)).set ↔ _
  rw [View.set_slice_whole, Rect.mem_set_unit]
  exact Iff.rfl

/-- Every entry of the result lies in the block some writing step writes: entry (r, s) in that of the last step
    of the group (r div 1024, s div 1024). -/
theorem cover (i : S4096x4096.Idx) :
    ∃ t : Fin cfg0.N, (cfg0.win 2).flush t = true ∧ i ∈ ((cfg0.win 2).blk t).view.set := by
  have hN : cfg0.N = 64 := N_0
  have h0 : (i 0).val < 4096 := (i 0).isLt
  have h1 : (i 1).val < 4096 := (i 1).isLt
  have hb : 16 * ((i 0).val / 1024) + 4 * ((i 1).val / 1024) + 3 < cfg0.N := by omega
  refine ⟨⟨_, hb⟩, (flush0_2 _).mpr (by show (16 * ((i 0).val / 1024) + 4 * ((i 1).val / 1024) + 3) % 4 = 3; omega), ?_⟩
  rw [mem_blk]
  obtain ⟨-, -, -, -, e4, e5⟩ := idx_facts ⟨_, hb⟩
  have e4' : win0_2.index ⟨_, hb⟩ (0 : Fin 2) = (16 * ((i 0).val / 1024) + 4 * ((i 1).val / 1024) + 3) / 16 := e4
  have e5' : win0_2.index ⟨_, hb⟩ (1 : Fin 2) = (16 * ((i 0).val / 1024) + 4 * ((i 1).val / 1024) + 3) / 4 % 4 := e5
  intro a
  match a with
  | ⟨0, _⟩ =>
    show win0_2.index ⟨_, hb⟩ (0 : Fin 2) * 1024 ≤ (i 0).val ∧ (i 0).val < win0_2.index ⟨_, hb⟩ (0 : Fin 2) * 1024 + 1024
    rw [e4']; omega
  | ⟨1, _⟩ =>
    show win0_2.index ⟨_, hb⟩ (1 : Fin 2) * 1024 ≤ (i 1).val ∧ (i 1).val < win0_2.index ⟨_, hb⟩ (1 : Fin 2) * 1024 + 1024
    rw [e5']; omega

/-- THE RESULT ARRAY after the run: the product of the arguments plus the constant. -/
theorem final (c : Dev nD) : (dats m 0 c).arrAt 2 cfg0.N = want m c :=
  (dats m 0 c).arrAt_eq_of_cover 2 (want m c) (fun t hf => flushed_eq m c t hf) cover

/-- The kernel's run, read: it ends with the result array at the product plus the constant and the arguments as
    launched. -/
theorem run : θ_run defs (onTc (τ := τ) (main (F := Ideal))) ⟨m, fun _ => 0, ρ⟩ fun r => ∀ c : Dev nD,
      r.2.mem ((c : Thread nD τ).loc main_v2) = want m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Tile

end
-- ==== Proof.Reference.lean ====
/-
  The reference program computes the specification.

  The reference is three host operations: the product of the two arguments contracted over the inner axis, the
  scalar constant 36 spread over the whole result shape, and their entrywise sum. Read at an entry (r, s) with exact
  arithmetic that is Σ_e A(r, e)·B(e, s) plus the constant — the specification, literally, once the index
  functions of the product are named by coordinates.
-/
import proofs.«149288_j72516227825730_2_alg».proof.Proof.Gen.ReferenceIdeal.Read
import proofs.«149288_j72516227825730_2_alg».proof.Proof.Spec

noncomputable section

open scoped BigOperators
open Idealize.ShloMosaic Idealize.ShloMosaic.ValueIdx

namespace Cert.ReferenceIdeal.RefValue

open Cert.ReferenceIdeal Cert.ReferenceIdeal.Gen Cert.ReferenceIdeal.Read

/-- The left operand of the product is read at (row of the entry, contraction position). -/
theorem lidx_eq (i : S4096x4096.Idx) (k : Fin 4096) : lidx_main_v0 i k = ix2 (i 0) k :=
  funext fun a => Fin.ext (by match a with | ⟨0, _⟩ => rfl | ⟨1, _⟩ => rfl)

/-- The right operand is read at (contraction position, column of the entry). -/
theorem ridx_eq (i : S4096x4096.Idx) (k : Fin 4096) : ridx_main_v0 i k = ix2 k (i 1) :=
  funext fun a => Fin.ext (by match a with | ⟨0, _⟩ => rfl | ⟨1, _⟩ => rfl)

/-- The reference's result, as a function of its two arguments, is the product plus the constant. -/
theorem result_eq (x0 x1 : (⟨S4096x4096, .f32⟩ : BufTy).Contents (Elt Ideal)) :
    val_main_v2 (F := Ideal) x0 x1 = Cert.ProductPlusConst.G x0 x1 := by
  funext i
  rw [val_main_v2_apply, val_main_v0_apply, val_main_v1_apply, val_main_cst_apply]
  simp only [lidx_eq, ridx_eq, Ideal.addf_def, Ideal.ofBits_def]
  rfl

end Cert.ReferenceIdeal.RefValue

end
-- ==== Proof.lean ====
/-
  A tiled matrix product with a constant folded into its accumulator, against the plain product plus the constant.

  The kernel multiplies two 4096 × 4096 matrices A and B tile by tile on a 4 × 4 × 4 grid (i, j, k) of
  1024 × 1024 blocks, k innermost. For each output tile (i, j) it keeps an accumulator that starts, at k = 0, not
  at zero but at the constant 36; each of the four steps k = 0, 1, 2, 3 adds the product of block (i, k) of A with
  block (k, j) of B; after the step k = 3 the accumulator is written out as tile (i, j) of the result. The two
  matrices reach the kernel converted to a shorter float format. The reference computes the whole product A·B,
  contracting all 4096 inner positions at once, and then adds the constant 36 to every entry.

  Read with exact arithmetic over the extended reals a change of float format is the identity, so at entry
  (P, Q) = (1024·i + p, 1024·j + q) the kernel ends with
      (((36 + S₀) + S₁) + S₂) + S₃,   S_k = Σ_{e < 1024} A(P, 1024·k + e) · B(1024·k + e, Q),
  and the reference with (Σ_{e < 4096} A(P, e) · B(e, Q)) + 36. The four stretches S_k make up the long sum, and
  addition of extended reals is commutative and associative, so the two agree — at every input, finite or not:
  nothing is cancelled and no product is distributed, and the precondition is never opened.

  The modules: Pieces (what each kind of grid step leaves in the accumulator and the output block, as the body's
  arithmetic), Step (that arithmetic at one entry), Scratch (the accumulator after any step as a running total),
  LibTileSum (a sum over a·b positions tile by tile, and a total started from a constant), Blocks (which entries of
  A and B a step's blocks are, and the result array from the blocks written), Spec (the common function), Reference
  (the reference computes it). The kernel's and the reference's runs themselves, and the three frames, are the
  generated modules'; the idealization rewrote nothing, so its conjunct is trivial.
-/
import proofs.«149288_j72516227825730_2_alg».proof.Defs
import proofs.«149288_j72516227825730_2_alg».proof.Proof.Gen.Kernel
import proofs.«149288_j72516227825730_2_alg».proof.Proof.Gen.Kernel.Frame
import proofs.«149288_j72516227825730_2_alg».proof.Proof.Gen.KernelIdeal
import proofs.«149288_j72516227825730_2_alg».proof.Proof.Gen.KernelIdeal.Frame
import proofs.«149288_j72516227825730_2_alg».proof.Proof.Gen.KernelIdeal.Value
import proofs.«149288_j72516227825730_2_alg».proof.Proof.Gen.ReferenceIdeal
import proofs.«149288_j72516227825730_2_alg».proof.Proof.Gen.ReferenceIdeal.Run
import proofs.«149288_j72516227825730_2_alg».proof.Proof.Gen.ReferenceIdeal.Read
import proofs.«149288_j72516227825730_2_alg».proof.Proof.Gen.Pre_finite_inputs
import proofs.«149288_j72516227825730_2_alg».proof.Proof.Blocks
import proofs.«149288_j72516227825730_2_alg».proof.Proof.Reference
import Idealize.ShloMosaic.Adequacy
import Idealize.ShloMosaic.Init

noncomputable section

namespace Cert.Proof

open Idealize.ShloMosaic Idealize.SL.Sem

/-- The kernel as printed runs to the end and leaves its arguments alone. -/
theorem frame_kernel : Cert.frame_Kernel := fun m ρ _ => Cert.Kernel.Gen.frame m ρ

/-- So does the kernel read with exact arithmetic. -/
theorem frame_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the kernel with exact arithmetic rewrote none of its operations. -/
theorem preserves : Cert.preserves_Kernel_KernelIdeal := trivial

/-- With exact arithmetic, from memories that agree on A and B, both programs end with the product A·B plus the
    constant in the result array: the kernel block by block from an accumulator started at the constant, the
    reference by one long contraction followed by the addition. -/
theorem algebraic : Cert.algebraic_KernelIdeal_ReferenceIdeal := by
  intro m ρ m' ρ' _ hagree
  refine ⟨fun c => Cert.KernelIdeal.Tile.want m c, Cert.KernelIdeal.Tile.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
